-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x112x112 : Shape := ⟨4, ![16, 64, 112, 112]⟩
abbrev S1x64x3x3 : Shape := ⟨4, ![1, 64, 3, 3]⟩
abbrev S64 : Shape := ⟨1, ![64]⟩
abbrev S_ : Shape := ⟨0, ![]⟩

class Facts : Prop where
  bcast_S_S16x64x112x112 : S_.BroadcastsInDim S16x64x112x112 (![] : Fin 0 → Fin S16x64x112x112.rank)
  reducesTo_S16x64x112x112_S_d0_1_2_3 : S16x64x112x112.ReducesTo [0, 1, 2, 3] S_
  h_S_ : 0 < S_.numel
  bcast_S_S1x64x3x3 : S_.BroadcastsInDim S1x64x3x3 (![] : Fin 0 → Fin S1x64x3x3.rank)
  reducesTo_S1x64x3x3_S_d0_1_2_3 : S1x64x3x3.ReducesTo [0, 1, 2, 3] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x64x112x112 .f32) (main_arg1 : FVec F S1x64x3x3 .f32) (main_arg2 : FVec F S64 .f32) (main_arg3 : FVec F S64 .f32) : IVec S_ 1 :=
  let main_v0 : FVec F S16x64x112x112 .f32 := Host.absf main_arg0
  let main_cst : FVec F S_ .f32 := constant S_ .f32 0x7F800000#32
  let main_v1 : FVec F S16x64x112x112 .f32 := broadcastInDim S16x64x112x112 ![] bcast_S_S16x64x112x112 main_cst
  let main_v2 : IVec S16x64x112x112 1 := cmpf .olt main_v0 main_v1
  let main_c : IVec S_ 1 := constantI S_ 1 1#1
  let main_v3 : IVec S_ 1 := (fun x v => Host.reduce IntOp.andi x v reducesTo_S16x64x112x112_S_d0_1_2_3 h_S_) main_v2 main_c
  let main_v4 : FVec F S1x64x3x3 .f32 := Host.absf main_arg1
  let main_cst_0 : FVec F S_ .f32 := constant S_ .f32 0x7F800000#32
  let main_v5 : FVec F S1x64x3x3 .f32 := broadcastInDim S1x64x3x3 ![] bcast_S_S1x64x3x3 main_cst_0
  let main_v6 : IVec S1x64x3x3 1 := cmpf .olt main_v4 main_v5
  let main_c_1 : IVec S_ 1 := constantI S_ 1 1#1
  let main_v7 : IVec S_ 1 := (fun x v => Host.reduce IntOp.andi x v reducesTo_S1x64x3x3_S_d0_1_2_3 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x64x112x112 : Shape := ⟨4, ![16, 64, 112, 112]⟩
abbrev S1x64x3x3 : Shape := ⟨4, ![1, 64, 3, 3]⟩
abbrev S64 : Shape := ⟨1, ![64]⟩
abbrev S_ : Shape := ⟨0, ![]⟩
abbrev S1x64x1x1 : Shape := ⟨4, ![1, 64, 1, 1]⟩
abbrev S64x3x3 : Shape := ⟨3, ![64, 3, 3]⟩
abbrev S3x3x64 : Shape := ⟨3, ![3, 3, 64]⟩
abbrev S9x64 : Shape := ⟨2, ![9, 64]⟩
abbrev S9x1x64x1x1 : Shape := ⟨5, ![9, 1, 64, 1, 1]⟩
abbrev S1x64x112x112 : Shape := ⟨4, ![1, 64, 112, 112]⟩
abbrev S1x64x114x114 : Shape := ⟨4, ![1, 64, 114, 114]⟩
abbrev S1x1x64x1x1 : Shape := ⟨5, ![1, 1, 64, 1, 1]⟩

abbrev nBuf : Space → Nat
  | .hbm => 25
  | .vmem => 8
  | .smem => 0
  | _ => 0

abbrev bufTy : (tb : Table) → Fin (tcTables nBuf tb) → BufTy
  | .hbm, ⟨0, _⟩ => ⟨S16x64x112x112, .f32⟩
  | .hbm, ⟨1, _⟩ => ⟨S1x64x3x3, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S1x64x1x1, .f32⟩
  | .hbm, ⟨19, _⟩ => ⟨S1x64x1x1, .f32⟩
  | .hbm, ⟨20, _⟩ => ⟨S64x3x3, .f32⟩
  | .hbm, ⟨21, _⟩ => ⟨S3x3x64, .f32⟩
  | .hbm, ⟨22, _⟩ => ⟨S9x64, .f32⟩
  | .hbm, ⟨23, _⟩ => ⟨S9x1x64x1x1, .f32⟩
  | .hbm, ⟨24, _⟩ => ⟨S16x64x112x112, .f32⟩
  | .local _ .vmem, ⟨0, _⟩ => ⟨S1x64x112x112, .f32⟩
  | .local _ .vmem, ⟨1, _⟩ => ⟨S1x64x112x112, .f32⟩
  | .local _ .vmem, ⟨2, _⟩ => ⟨S9x1x64x1x1, .f32⟩
  | .local _ .vmem, ⟨3, _⟩ => ⟨S1x64x1x1, .f32⟩
  | .local _ .vmem, ⟨4, _⟩ => ⟨S1x64x1x1, .f32⟩
  | .local _ .vmem, ⟨5, _⟩ => ⟨S1x64x112x112, .f32⟩
  | .local _ .vmem, ⟨6, _⟩ => ⟨S1x64x112x112, .f32⟩
  | .local _ .vmem, ⟨7, _⟩ => ⟨S1x64x114x114, .f32⟩
  | _, _ => ⟨S16x64x112x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x112x112 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x1x64x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x112x112 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  shapeCasts_S64_S1x64x1x1 : S64.ShapeCasts S1x64x1x1
  shapeCasts_S1x64x3x3_S64x3x3 : S1x64x3x3.ShapeCasts S64x3x3
  transposes_S64x3x3_S3x3x64_1_2_0 : S64x3x3.Transposes [1, 2, 0] S3x3x64
  shapeCasts_S3x3x64_S9x64 : S3x3x64.ShapeCasts S9x64
  shapeCasts_S9x64_S9x1x64x1x1 : S9x64.ShapeCasts S9x1x64x1x1
  inb_S1x64x1x1_S1x64x1x1_0_0_0_0 : ∀ a, (![0, 0, 0, 0] : Fin 4 → Nat) a + S1x64x1x1.size a ≤ S1x64x1x1.size a
  h_S1x64x1x1 : 0 < S1x64x1x1.numel
  shapeCasts_S1x64x1x1_S1x64x1x1 : S1x64x1x1.ShapeCasts S1x64x1x1
  broadcasts_S1x64x1x1_S1x64x114x114 : S1x64x1x1.Broadcasts S1x64x114x114
  inb_S1x64x114x114_S1x64x114x114_0_0_0_0 : ∀ a, (![0, 0, 0, 0] : Fin 4 → Nat) a + S1x64x114x114.size a ≤ S1x64x114x114.size a
  h_S1x64x114x114 : 0 < S1x64x114x114.numel
  shapeCasts_S1x64x114x114_S1x64x114x114 : S1x64x114x114.ShapeCasts S1x64x114x114
  inb_S1x64x112x112_S1x64x112x112_0_0_0_0 : ∀ a, (![0, 0, 0, 0] : Fin 4 → Nat) a + S1x64x112x112.size a ≤ S1x64x112x112.size a
  h_S1x64x112x112 : 0 < S1x64x112x112.numel
  broadcasts_S1x64x1x1_S1x64x112x112 : S1x64x1x1.Broadcasts S1x64x112x112
  inb_S1x64x114x114_S1x64x112x112_0_0_1_1 : ∀ a, (![0, 0, 1, 1] : Fin 4 → Nat) a + S1x64x112x112.size a ≤ S1x64x114x114.size a
  shapeCasts_S1x64x112x112_S1x64x112x112 : S1x64x112x112.ShapeCasts S1x64x112x112
  inb_S1x64x114x114_S1x64x112x112_0_0_0_0 : ∀ a, (![0, 0, 0, 0] : Fin 4 → Nat) a + S1x64x112x112.size a ≤ S1x64x114x114.size a
  inb_S9x1x64x1x1_S1x1x64x1x1_0_0_0_0_0 : ∀ a, (![0, 0, 0, 0, 0] : Fin 5 → Nat) a + S1x1x64x1x1.size a ≤ S9x1x64x1x1.size a
  h_S1x1x64x1x1 : 0 < S1x1x64x1x1.numel
  shapeCasts_S1x1x64x1x1_S1x64x1x1 : S1x1x64x1x1.ShapeCasts S1x64x1x1
  inb_S1x64x114x114_S1x64x112x112_0_0_0_1 : ∀ a, (![0, 0, 0, 1] : Fin 4 → Nat) a + S1x64x112x112.size a ≤ S1x64x114x114.size a
  inb_S9x1x64x1x1_S1x1x64x1x1_1_0_0_0_0 : ∀ a, (![1, 0, 0, 0, 0] : Fin 5 → Nat) a + S1x1x64x1x1.size a ≤ S9x1x64x1x1.size a
  inb_S1x64x114x114_S1x64x112x112_0_0_0_2 : ∀ a, (![0, 0, 0, 2] : Fin 4 → Nat) a + S1x64x112x112.size a ≤ S1x64x114x114.size a
  inb_S9x1x64x1x1_S1x1x64x1x1_2_0_0_0_0 : ∀ a, (![2, 0, 0, 0, 0] : Fin 5 → Nat) a + S1x1x64x1x1.size a ≤ S9x1x64x1x1.size a
  inb_S1x64x114x114_S1x64x112x112_0_0_1_0 : ∀ a, (![0, 0, 1, 0] : Fin 4 → Nat) a + S1x64x112x112.size a ≤ S1x64x114x114.size a
  inb_S9x1x64x1x1_S1x1x64x1x1_3_0_0_0_0 : ∀ a, (![3, 0, 0, 0, 0] : Fin 5 → Nat) a + S1x1x64x1x1.size a ≤ S9x1x64x1x1.size a
  inb_S9x1x64x1x1_S1x1x64x1x1_4_0_0_0_0 : ∀ a, (![4, 0, 0, 0, 0] : Fin 5 → Nat) a + S1x1x64x1x1.size a ≤ S9x1x64x1x1.size a
  inb_S1x64x114x114_S1x64x112x112_0_0_1_2 : ∀ a, (![0, 0, 1, 2] : Fin 4 → Nat) a + S1x64x112x112.size a ≤ S1x64x114x114.size a
  inb_S9x1x64x1x1_S1x1x64x1x1_5_0_0_0_0 : ∀ a, (![5, 0, 0, 0, 0] : Fin 5 → Nat) a + S1x1x64x1x1.size a ≤ S9x1x64x1x1.size a
  inb_S1x64x114x114_S1x64x112x112_0_0_2_0 : ∀ a, (![0, 0, 2, 0] : Fin 4 → Nat) a + S1x64x112x112.size a ≤ S1x64x114x114.size a
  inb_S9x1x64x1x1_S1x1x64x1x1_6_0_0_0_0 : ∀ a, (![6, 0, 0, 0, 0] : Fin 5 → Nat) a + S1x1x64x1x1.size a ≤ S9x1x64x1x1.size a
  inb_S1x64x114x114_S1x64x112x112_0_0_2_1 : ∀ a, (![0, 0, 2, 1] : Fin 4 → Nat) a + S1x64x112x112.size a ≤ S1x64x114x114.size a
  inb_S9x1x64x1x1_S1x1x64x1x1_7_0_0_0_0 : ∀ a, (![7, 0, 0, 0, 0] : Fin 5 → Nat) a + S1x1x64x1x1.size a ≤ S9x1x64x1x1.size a
  inb_S1x64x114x114_S1x64x112x112_0_0_2_2 : ∀ a, (![0, 0, 2, 2] : Fin 4 → Nat) a + S1x64x112x112.size a ≤ S1x64x114x114.size a
  inb_S9x1x64x1x1_S1x1x64x1x1_8_0_0_0_0 : ∀ a, (![8, 0, 0, 0, 0] : Fin 5 → Nat) a + S1x1x64x1x1.size a ≤ S9x1x64x1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x112x112.size a ≤ S16x64x112x112.size a
  hwx0_0 : ∀ i : grid0.Coords, EltTy.bits .f32 = 32 ∨ (Rect.block (s := S16x64x112x112) S1x64x112x112.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x1x64x1x1.size a ≤ S9x1x64x1x1.size a
  hwx0_1 : ∀ i : grid0.Coords, EltTy.bits .f32 = 32 ∨ (Rect.block (s := S9x1x64x1x1) S9x1x64x1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64x1x1.size a ≤ S1x64x1x1.size a
  hwx0_2 : ∀ i : grid0.Coords, EltTy.bits .f32 = 32 ∨ (Rect.block (s := S1x64x1x1) S1x64x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64x1x1.size a ≤ S1x64x1x1.size a
  hwx0_3 : ∀ i : grid0.Coords, EltTy.bits .f32 = 32 ∨ (Rect.block (s := S1x64x1x1) S1x64x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x112x112.size a ≤ S16x64x112x112.size a
  hwx0_4 : ∀ i : grid0.Coords, EltTy.bits .f32 = 32 ∨ (Rect.block (s := S16x64x112x112) S1x64x112x112.size (cc0_transform_4 i) (hinb0_4 i)).WholeWords (EltTy.packing .f32)

variable [Facts₀]

abbrev win0_0 : Pipeline.Window sig grid0 :=
  Pipeline.Window.ofSpec (Memref.whole main_arg0) S1x64x112x112.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S9x1x64x1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x64x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64x1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64x112x112.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x64x112x112 : Shape := ⟨4, ![16, 64, 112, 112]⟩
abbrev S1x64x3x3 : Shape := ⟨4, ![1, 64, 3, 3]⟩
abbrev S64 : Shape := ⟨1, ![64]⟩
abbrev S_ : Shape := ⟨0, ![]⟩
abbrev S16x64x114x114 : Shape := ⟨4, ![16, 64, 114, 114]⟩
abbrev S1x64x1x1 : Shape := ⟨4, ![1, 64, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S16x64x112x112, .f32⟩
  | .hbm, ⟨1, _⟩ => ⟨S1x64x3x3, .f32⟩
  | .hbm, ⟨2, _⟩ => ⟨S64, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S16x64x114x114, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x64x1x1, .f32⟩
  | .hbm, ⟨11, _⟩ => ⟨S16x64x114x114, .f32⟩
  | .hbm, ⟨12, _⟩ => ⟨S16x64x114x114, .f32⟩
  | .hbm, ⟨13, _⟩ => ⟨S16x64x112x112, .f32⟩
  | .hbm, ⟨14, _⟩ => ⟨S1x64x1x1, .f32⟩
  | .hbm, ⟨15, _⟩ => ⟨S64, .f32⟩
  | .hbm, ⟨16, _⟩ => ⟨S1x64x1x1, .f32⟩
  | .hbm, ⟨17, _⟩ => ⟨S16x64x112x112, .f32⟩
  | .hbm, ⟨18, _⟩ => ⟨S16x64x112x112, .f32⟩
  | .hbm, ⟨19, _⟩ => ⟨S16x64x112x112, .f32⟩
  | .hbm, ⟨20, _⟩ => ⟨S1x64x1x1, .f32⟩
  | .hbm, ⟨21, _⟩ => ⟨S64, .f32⟩
  | .hbm, ⟨22, _⟩ => ⟨S1x64x1x1, .f32⟩
  | .hbm, ⟨23, _⟩ => ⟨S16x64x112x112, .f32⟩
  | .hbm, ⟨24, _⟩ => ⟨S16x64x112x112, .f32⟩
  | .hbm, ⟨25, _⟩ => ⟨S16x64x112x112, .f32⟩
  | .hbm, ⟨26, _⟩ => ⟨S16x64x112x112, .f32⟩
  | .hbm, ⟨27, _⟩ => ⟨S16x64x112x112, .f32⟩
  | .hbm, ⟨28, _⟩ => ⟨S1x64x1x1, .f32⟩
  | .hbm, ⟨29, _⟩ => ⟨S64, .f32⟩
  | .hbm, ⟨30, _⟩ => ⟨S1x64x1x1, .f32⟩
  | .hbm, ⟨31, _⟩ => ⟨S16x64x112x112, .f32⟩
  | .hbm, ⟨32, _⟩ => ⟨S16x64x112x112, .f32⟩
  | .hbm, ⟨33, _⟩ => ⟨S16x64x112x112, .f32⟩
  | .hbm, ⟨34, _⟩ => ⟨S16x64x112x112, .f32⟩
  | .hbm, ⟨35, _⟩ => ⟨S16x64x112x112, .f32⟩
  | .hbm, ⟨36, _⟩ => ⟨S1x64x1x1, .f32⟩
  | .hbm, ⟨37, _⟩ => ⟨S64, .f32⟩
  | .hbm, ⟨38, _⟩ => ⟨S1x64x1x1, .f32⟩
  | .hbm, ⟨39, _⟩ => ⟨S16x64x112x112, .f32⟩
  | .hbm, ⟨40, _⟩ => ⟨S16x64x112x112, .f32⟩
  | .hbm, ⟨41, _⟩ => ⟨S16x64x112x112, .f32⟩
  | .hbm, ⟨42, _⟩ => ⟨S16x64x112x112, .f32⟩
  | .hbm, ⟨43, _⟩ => ⟨S16x64x112x112, .f32⟩
  | .hbm, ⟨44, _⟩ => ⟨S1x64x1x1, .f32⟩
  | .hbm, ⟨45, _⟩ => ⟨S64, .f32⟩
  | .hbm, ⟨46, _⟩ => ⟨S1x64x1x1, .f32⟩
  | .hbm, ⟨47, _⟩ => ⟨S16x64x112x112, .f32⟩
  | .hbm, ⟨48, _⟩ => ⟨S16x64x112x112, .f32⟩
  | .hbm, ⟨49, _⟩ => ⟨S16x64x112x112, .f32⟩
  | .hbm, ⟨50, _⟩ => ⟨S16x64x112x112, .f32⟩
  | .hbm, ⟨51, _⟩ => ⟨S16x64x112x112, .f32⟩
  | .hbm, ⟨52, _⟩ => ⟨S1x64x1x1, .f32⟩
  | .hbm, ⟨53, _⟩ => ⟨S64, .f32⟩
  | .hbm, ⟨54, _⟩ => ⟨S1x64x1x1, .f32⟩
  | .hbm, ⟨55, _⟩ => ⟨S16x64x112x112, .f32⟩
  | .hbm, ⟨56, _⟩ => ⟨S16x64x112x112, .f32⟩
  | .hbm, ⟨57, _⟩ => ⟨S16x64x112x112, .f32⟩
  | .hbm, ⟨58, _⟩ => ⟨S16x64x112x112, .f32⟩
  | .hbm, ⟨59, _⟩ => ⟨S16x64x112x112, .f32⟩
  | .hbm, ⟨60, _⟩ => ⟨S1x64x1x1, .f32⟩
  | .hbm, ⟨61, _⟩ => ⟨S64, .f32⟩
  | .hbm, ⟨62, _⟩ => ⟨S1x64x1x1, .f32⟩
  | .hbm, ⟨63, _⟩ => ⟨S16x64x112x112, .f32⟩
  | .hbm, ⟨64, _⟩ => ⟨S16x64x112x112, .f32⟩
  | .hbm, ⟨65, _⟩ => ⟨S16x64x112x112, .f32⟩
  | .hbm, ⟨66, _⟩ => ⟨S16x64x112x112, .f32⟩
  | .hbm, ⟨67, _⟩ => ⟨S16x64x112x112, .f32⟩
  | .hbm, ⟨68, _⟩ => ⟨S1x64x1x1, .f32⟩
  | .hbm, ⟨69, _⟩ => ⟨S64, .f32⟩
  | .hbm, ⟨70, _⟩ => ⟨S1x64x1x1, .f32⟩
  | .hbm, ⟨71, _⟩ => ⟨S16x64x112x112, .f32⟩
  | .hbm, ⟨72, _⟩ => ⟨S16x64x112x112, .f32⟩
  | .hbm, ⟨73, _⟩ => ⟨S16x64x112x112, .f32⟩
  | .hbm, ⟨74, _⟩ => ⟨S16x64x112x112, .f32⟩
  | .hbm, ⟨75, _⟩ => ⟨S16x64x112x112, .f32⟩
  | .hbm, ⟨76, _⟩ => ⟨S1x64x1x1, .f32⟩
  | .hbm, ⟨77, _⟩ => ⟨S64, .f32⟩
  | .hbm, ⟨78, _⟩ => ⟨S1x64x1x1, .f32⟩
  | .hbm, ⟨79, _⟩ => ⟨S16x64x112x112, .f32⟩
  | .hbm, ⟨80, _⟩ => ⟨S16x64x112x112, .f32⟩
  | .hbm, ⟨81, _⟩ => ⟨S16x64x112x112, .f32⟩
  | .hbm, ⟨82, _⟩ => ⟨S16x64x112x112, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S64, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S_, .f32⟩
  | .hbm, ⟨92, _⟩ => ⟨S64, .f32⟩
  | .hbm, ⟨93, _⟩ => ⟨S64, .f32⟩
  | .hbm, ⟨94, _⟩ => ⟨S1x64x1x1, .f32⟩
  | .hbm, ⟨95, _⟩ => ⟨S16x64x112x112, .f32⟩
  | .hbm, ⟨96, _⟩ => ⟨S16x64x112x112, .f32⟩
  | .hbm, ⟨97, _⟩ => ⟨S16x64x112x112, .f32⟩
  | .hbm, ⟨98, _⟩ => ⟨S16x64x112x112, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S1x64x1x1, .f32⟩
  | .hbm, ⟨103, _⟩ => ⟨S16x64x112x112, .f32⟩
  | .hbm, ⟨104, _⟩ => ⟨S16x64x112x112, .f32⟩
  | _, _ => ⟨S16x64x112x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_cst_0 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_1 : Ref sig .tc := ⟨.hbm, 88, rfl⟩
abbrev main_v80 : Ref sig .tc := ⟨.hbm, 89, rfl⟩
abbrev main_v81 : Ref sig .tc := ⟨.hbm, 90, rfl⟩
abbrev main_cst_2 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_cst_3 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩

abbrev nD : Nat := 1
abbrev τ : Topo := Topo.v7x

variable {F : FTy → Type} [FloatOps F]

class Facts₀ : Prop where
  pads_S16x64x112x112_S16x64x114x114_000_000_110_110 : S16x64x112x112.Pads (![0, 0, 1, 1] : Fin 4 → Nat) ![0, 0, 1, 1] ![0, 0, 0, 0] S16x64x114x114
  h_S_ : 0 < S_.numel
  bcast_S_S64 : S_.BroadcastsInDim S64 (![] : Fin 0 → Fin S64.rank)
  bcast_S64_S1x64x1x1_1 : S64.BroadcastsInDim S1x64x1x1 (![1] : Fin 1 → Fin S1x64x1x1.rank)
  bcast_S1x64x1x1_S16x64x114x114_0_1_2_3 : S1x64x1x1.BroadcastsInDim S16x64x114x114 (![0, 1, 2, 3] : Fin 4 → Fin S16x64x114x114.rank)
  slices_S16x64x114x114_S16x64x112x112_0_0_0_0 : S16x64x114x114.Slices ![0, 0, 0, 0] S16x64x112x112
  slices_S1x64x3x3_S1x64x1x1_0_0_0_0 : S1x64x3x3.Slices ![0, 0, 0, 0] S1x64x1x1
  shapeCasts_S1x64x1x1_S64 : S1x64x1x1.ShapeCasts S64
  bcast_S1x64x1x1_S16x64x112x112_0_1_2_3 : S1x64x1x1.BroadcastsInDim S16x64x112x112 (![0, 1, 2, 3] : Fin 4 → Fin S16x64x112x112.rank)
  slices_S16x64x114x114_S16x64x112x112_0_0_0_1 : S16x64x114x114.Slices ![0, 0, 0, 1] S16x64x112x112
  slices_S1x64x3x3_S1x64x1x1_0_0_0_1 : S1x64x3x3.Slices ![0, 0, 0, 1] S1x64x1x1
  slices_S16x64x114x114_S16x64x112x112_0_0_0_2 : S16x64x114x114.Slices ![0, 0, 0, 2] S16x64x112x112
  slices_S1x64x3x3_S1x64x1x1_0_0_0_2 : S1x64x3x3.Slices ![0, 0, 0, 2] S1x64x1x1
  slices_S16x64x114x114_S16x64x112x112_0_0_1_0 : S16x64x114x114.Slices ![0, 0, 1, 0] S16x64x112x112
  slices_S1x64x3x3_S1x64x1x1_0_0_1_0 : S1x64x3x3.Slices ![0, 0, 1, 0] S1x64x1x1
  slices_S16x64x114x114_S16x64x112x112_0_0_1_1 : S16x64x114x114.Slices ![0, 0, 1, 1] S16x64x112x112
  slices_S1x64x3x3_S1x64x1x1_0_0_1_1 : S1x64x3x3.Slices ![0, 0, 1, 1] S1x64x1x1
  slices_S16x64x114x114_S16x64x112x112_0_0_1_2 : S16x64x114x114.Slices ![0, 0, 1, 2] S16x64x112x112
  slices_S1x64x3x3_S1x64x1x1_0_0_1_2 : S1x64x3x3.Slices ![0, 0, 1, 2] S1x64x1x1
  slices_S16x64x114x114_S16x64x112x112_0_0_2_0 : S16x64x114x114.Slices ![0, 0, 2, 0] S16x64x112x112
  slices_S1x64x3x3_S1x64x1x1_0_0_2_0 : S1x64x3x3.Slices ![0, 0, 2, 0] S1x64x1x1
  slices_S16x64x114x114_S16x64x112x112_0_0_2_1 : S16x64x114x114.Slices ![0, 0, 2, 1] S16x64x112x112
  slices_S1x64x3x3_S1x64x1x1_0_0_2_1 : S1x64x3x3.Slices ![0, 0, 2, 1] S1x64x1x1
  slices_S16x64x114x114_S16x64x112x112_0_0_2_2 : S16x64x114x114.Slices ![0, 0, 2, 2] S16x64x112x112
  slices_S1x64x3x3_S1x64x1x1_0_0_2_2 : S1x64x3x3.Slices ![0, 0, 2, 2] S1x64x1x1

variable [Facts₀]

class Facts : Prop extends Facts₀ where

variable [Facts]
-- ==== Proof.Spec.lean ====
/-
  The morphology layer as ONE function of its four argument arrays, entry by entry, on the extended reals.

  For an image `x` [16, 64, 112, 112], per-channel 3x3 weights `k` [1, 64, 3, 3], a per-channel offset `bias` and a
  per-channel `perc`: with `B c = bias c * 10` and `P c = 1 / (1 + exp (-(perc c * 10)))`, the image is padded by one
  cell on each side of its two spatial axes and `B c` is added everywhere, so that a padded cell holds `B c` and an
  inner cell `x + B c`; the nine taps of the 3x3 window at (h, w) are the padded cells (h + i, w + j) times the weight
  `k (0, c, i, j)`; `hi` and `lo` are their maximum and minimum, taken tap after tap in row-major order; and the entry
  is `lo + (hi - lo) * P c - B c`.
-/
import Idealize.ShloMosaic.PureOps.Ideal
import Idealize.ShloMosaic.Lib.ValueIdx

noncomputable section

namespace Cert.Morph

open Idealize.ShloMosaic Idealize.ShloMosaic.ValueIdx

/-- The image's shape, the weights' shape, a per-channel vector's shape, and the scalar shape. -/
abbrev SX : Shape := ⟨4, ![16, 64, 112, 112]⟩
abbrev SK : Shape := ⟨4, ![1, 64, 3, 3]⟩
abbrev SC : Shape := ⟨1, ![64]⟩
abbrev S0 : Shape := ⟨0, ![]⟩

/-- The offset scaled by ten, channel by channel (the literal is the float 10.0). -/
def biasTen (bias : FVec Ideal SC .f32) (hb : S0.BroadcastsInDim SC (![] : Fin 0 → Fin SC.rank)) : FVec Ideal SC .f32 :=
  mulf bias (broadcastInDim SC ![] hb (constant S0 .f32 0x41200000#32))

/-- The blending weight `1 / (1 + exp (-(perc * 10)))`, channel by channel (the literals are the floats 1.0 and 10.0). -/
def sigTen (perc : FVec Ideal SC .f32) (hb : S0.BroadcastsInDim SC (![] : Fin 0 → Fin SC.rank)) : FVec Ideal SC .f32 :=
  Host.divf (broadcastInDim SC ![] hb (constant S0 .f32 0x3F800000#32))
    (addf (broadcastInDim SC ![] hb (constant S0 .f32 0x3F800000#32))
      (Host.exp (Host.negf (mulf perc (broadcastInDim SC ![] hb (constant S0 .f32 0x41200000#32))))))

/-- One channel's padded and offset image at the padded coordinates (h, w), both in [0, 114): the offset `B` alone on
    the one-cell border, the image's cell plus `B` inside. -/
def padv (xin : Fin 112 → Fin 112 → EReal) (B : EReal) (h w : ℕ) : EReal :=
  if hin : (1 ≤ h ∧ h ≤ 112) ∧ (1 ≤ w ∧ w ≤ 112) then xin ⟨h - 1, by omega⟩ ⟨w - 1, by omega⟩ + B else B

/-- Tap (i, j) of the window at (h, w): the padded cell (i + h, j + w) times the weight (i, j). -/
def tapv (xin : Fin 112 → Fin 112 → EReal) (kv : Fin 3 → Fin 3 → EReal) (B : EReal) (h w : Fin 112) (i j : Fin 3) : EReal :=
  padv xin B (i.val + h.val) (j.val + w.val) * kv i j

/-- The maximum of nine taps, taken in row-major order. -/
def hi9 (t : Fin 3 → Fin 3 → EReal) : EReal :=
  max (max (max (max (max (max (max (max (t 0 0) (t 0 1)) (t 0 2)) (t 1 0)) (t 1 1)) (t 1 2)) (t 2 0)) (t 2 1)) (t 2 2)

/-- The minimum of nine taps, taken in row-major order. -/
def lo9 (t : Fin 3 → Fin 3 → EReal) : EReal :=
  min (min (min (min (min (min (min (min (t 0 0) (t 0 1)) (t 0 2)) (t 1 0)) (t 1 1)) (t 1 2)) (t 2 0)) (t 2 1)) (t 2 2)

/-- One entry from one channel's data: `lo + (hi - lo) * P - B`. -/
def blend (xin : Fin 112 → Fin 112 → EReal) (kv : Fin 3 → Fin 3 → EReal) (B P : EReal) (h w : Fin 112) : EReal :=
  lo9 (tapv xin kv B h w) + (hi9 (tapv xin kv B h w) - lo9 (tapv xin kv B h w)) * P - B

/-- The layer's result as one function of the four argument arrays. -/
def G (x : FVec Ideal SX .f32) (k : FVec Ideal SK .f32) (bias perc : FVec Ideal SC .f32)
    (hb : S0.BroadcastsInDim SC (![] : Fin 0 → Fin SC.rank)) : FVec Ideal SX .f32 := fun i =>
  blend (fun h w => x (ix4 (i 0) (i 1) h w)) (fun a b => k (ix4 0 (i 1) a b))
    (biasTen bias hb (ix1 (i 1))) (sigTen perc hb (ix1 (i 1))) (i 2) (i 3)

end Cert.Morph

end
-- ==== Proof.LibWindowLayout.lean ====
/-
  Layout operations of a sliding-window layer read at an entry, general in the extents.

  A rank-4 array [a, b, h, w] padded by one cell on each side of its two last axes; a unit-stride slice of a rank-4
  array that moves only the two last axes; a per-channel vector [b] spread over [a, b, h, w] through [1, b, 1, 1]
  (the host's two broadcasts, and a kernel's one `vector.broadcast` of a [1, b, 1, 1] column); one tap's weights
  cut out of [1, b, kh, kw]; the unit-axis reshapes [b] → [1, b, 1, 1] and [1, 1, b, 1, 1] → [1, b, 1, 1]; and the
  3x3 weights re-laid tap-major, [1, b, 3, 3] → [b, 3, 3] → [3, 3, b] → [9, b] → [9, 1, b, 1, 1], read at tap 3 i + j.
  Each lemma names the operand's entry by its coordinates.
-/
import Idealize.ShloMosaic.Lib.Pipeline.Value
import Idealize.ShloMosaic.Lib.ValueIdx
import Idealize.ShloMosaic.Lib.KernelVsHost

noncomputable section

namespace Cert.WindowLayout

open Idealize.ShloMosaic Idealize.ShloMosaic.ValueIdx

variable {α : Type}

/-- A slice that keeps the two leading axes whole and starts at (oi, oj) on the two last ones reads the operand at
    the entry moved by (oi, oj). -/
theorem slice4_apply {a b H W h w : ℕ} (oi oj : ℕ) (y : (⟨4, ![a, b, H, W]⟩ : Shape).Idx → α)
    (hs : (⟨4, ![a, b, H, W]⟩ : Shape).Slices ![0, 0, oi, oj] ⟨4, ![a, b, h, w]⟩)
    (p : Fin a) (q : Fin b) (r : Fin h) (s : Fin w) (hr : oi + r.val < H) (hc : oj + s.val < W) :
    extractStridedSlice ⟨4, ![a, b, h, w]⟩ ![0, 0, oi, oj] y hs (ix4 p q r s)
      = y (ix4 p q ⟨oi + r.val, hr⟩ ⟨oj + s.val, hc⟩) :=
  extractStridedSlice_apply _ y hs _ _ fun e => match e with
    | ⟨0, _⟩ => by show p.val = 0 + p.val; omega
    | ⟨1, _⟩ => by show q.val = 0 + q.val; omega
    | ⟨2, _⟩ => rfl
    | ⟨3, _⟩ => rfl

/-- An array padded by one cell before and after each of its two last axes: inside the one-cell border it is the
    operand one cell back, on the border the padding value. -/
theorem pad4_apply {a b h w : ℕ} (x : (⟨4, ![a, b, h, w]⟩ : Shape).Idx → α) {u : Shape} (v : u.Idx → α)
    (hp : (⟨4, ![a, b, h, w]⟩ : Shape).Pads ![0, 0, 1, 1] ![0, 0, 1, 1] ![0, 0, 0, 0] ⟨4, ![a, b, h + 2, w + 2]⟩)
    (hu : 0 < u.numel) (p : Fin a) (q : Fin b) (r : Fin (h + 2)) (s : Fin (w + 2)) :
    pad ⟨4, ![a, b, h + 2, w + 2]⟩ ![0, 0, 1, 1] ![0, 0, 1, 1] ![0, 0, 0, 0] x v hp hu (ix4 p q r s)
      = if hin : (1 ≤ r.val ∧ r.val ≤ h) ∧ (1 ≤ s.val ∧ s.val ≤ w) then
          x (ix4 p q ⟨r.val - 1, by omega⟩ ⟨s.val - 1, by omega⟩)
        else v (Shape.Idx.first hu) := by
  by_cases hin : (1 ≤ r.val ∧ r.val ≤ h) ∧ (1 ≤ s.val ∧ s.val ≤ w)
  · rw [dif_pos hin]
    exact pad_apply_of_inside _ _ _ x v hp hu _ _ fun e => match e with
      | ⟨0, _⟩ => by show p.val = 0 + p.val * (0 + 1); omega
      | ⟨1, _⟩ => by show q.val = 0 + q.val * (0 + 1); omega
      | ⟨2, _⟩ => by show r.val = 1 + (r.val - 1) * (0 + 1); omega
      | ⟨3, _⟩ => by show s.val = 1 + (s.val - 1) * (0 + 1); omega
  · rw [dif_neg hin]
    by_cases h2 : 1 ≤ r.val ∧ r.val ≤ h
    · refine pad_apply_of_not_inside _ _ _ x v hp hu _ ⟨3, by show 3 < 4; omega⟩ ?_
      show ¬(1 ≤ s.val ∧ (s.val - 1) % 1 = 0 ∧ (s.val - 1) / 1 < w)
      omega
    · refine pad_apply_of_not_inside _ _ _ x v hp hu _ ⟨2, by show 2 < 4; omega⟩ ?_
      show ¬(1 ≤ r.val ∧ (r.val - 1) % 1 = 0 ∧ (r.val - 1) / 1 < h)
      omega

/-- A per-channel vector spread over [a, b, h, w] through [1, b, 1, 1] reads its channel's entry. -/
theorem chanBroadcastInDim_apply {a b h w : ℕ} (hb : 1 < b) (v : (⟨1, ![b]⟩ : Shape).Idx → α)
    (h1 : (⟨1, ![b]⟩ : Shape).BroadcastsInDim ⟨4, ![1, b, 1, 1]⟩ ![1])
    (h2 : (⟨4, ![1, b, 1, 1]⟩ : Shape).BroadcastsInDim ⟨4, ![a, b, h, w]⟩ ![0, 1, 2, 3])
    (p : Fin a) (q : Fin b) (r : Fin h) (s : Fin w) :
    broadcastInDim ⟨4, ![a, b, h, w]⟩ ![0, 1, 2, 3] h2 (broadcastInDim ⟨4, ![1, b, 1, 1]⟩ ![1] h1 v) (ix4 p q r s)
      = v (ix1 q) := by
  rw [broadcastInDim_apply _ h2 _ (ix4 p q r s) (ix4 0 q 0 0) (fun e => match e with
    | ⟨0, _⟩ => by show 0 = if (1 : ℕ) = 1 then 0 else p.val; rw [if_pos rfl]
    | ⟨1, _⟩ => by show q.val = if b = 1 then 0 else q.val; rw [if_neg (by omega)]
    | ⟨2, _⟩ => by show 0 = if (1 : ℕ) = 1 then 0 else r.val; rw [if_pos rfl]
    | ⟨3, _⟩ => by show 0 = if (1 : ℕ) = 1 then 0 else s.val; rw [if_pos rfl])]
  exact broadcastInDim_apply _ h1 v _ (ix1 q) fun e => match e with
    | ⟨0, _⟩ => by show q.val = if b = 1 then 0 else q.val; rw [if_neg (by omega)]

/-- A [1, b, 1, 1] column spread over [1, b, h, w] reads its channel's entry. -/
theorem chanBroadcastTo_apply {b h w : ℕ} (hb : 1 < b) (v : (⟨4, ![1, b, 1, 1]⟩ : Shape).Idx → α)
    (hbc : (⟨4, ![1, b, 1, 1]⟩ : Shape).Broadcasts ⟨4, ![1, b, h, w]⟩) (p : Fin 1) (q : Fin b) (r : Fin h) (s : Fin w) :
    broadcastTo ⟨4, ![1, b, h, w]⟩ v hbc (ix4 p q r s) = v (ix4 0 q 0 0) :=
  broadcastTo_apply v hbc _ _ fun e => match e with
    | ⟨0, _⟩ => by show 0 = if (1 : ℕ) = 1 then 0 else p.val; rw [if_pos rfl]
    | ⟨1, _⟩ => by show q.val = if b = 1 then 0 else q.val; rw [if_neg (by omega)]
    | ⟨2, _⟩ => by show 0 = if (1 : ℕ) = 1 then 0 else r.val; rw [if_pos rfl]
    | ⟨3, _⟩ => by show 0 = if (1 : ℕ) = 1 then 0 else s.val; rw [if_pos rfl]

/-- Tap (oi, oj)'s weights, cut out of [1, b, kh, kw] and flattened to [b], read the weight array at (0, q, oi, oj). -/
theorem tapWeight_apply {b kh kw : ℕ} (oi oj : ℕ) (k : (⟨4, ![1, b, kh, kw]⟩ : Shape).Idx → α)
    (hs : (⟨4, ![1, b, kh, kw]⟩ : Shape).Slices ![0, 0, oi, oj] ⟨4, ![1, b, 1, 1]⟩)
    (hc : (⟨4, ![1, b, 1, 1]⟩ : Shape).ShapeCasts ⟨1, ![b]⟩) (q : Fin b) (hi : oi < kh) (hj : oj < kw) :
    shapeCast ⟨1, ![b]⟩ (extractStridedSlice ⟨4, ![1, b, 1, 1]⟩ ![0, 0, oi, oj] k hs) hc (ix1 q)
      = k (ix4 0 q ⟨oi, hi⟩ ⟨oj, hj⟩) := by
  rw [shapeCast_apply _ hc (ix1 q) (ix4 0 q 0 0) (by
    rw [Shape.rowMajor_val_four, Shape.rowMajor_val_one]
    show ((0 * b + q.val) * 1 + 0) * 1 + 0 = q.val
    omega)]
  exact extractStridedSlice_apply _ k hs _ _ fun e => match e with
    | ⟨0, _⟩ => by show 0 = 0 + 0; omega
    | ⟨1, _⟩ => by show q.val = 0 + q.val; omega
    | ⟨2, _⟩ => by show oi = oi + 0; omega
    | ⟨3, _⟩ => by show oj = oj + 0; omega

/-- A per-channel vector viewed [1, b, 1, 1] reads its channel's entry. -/
theorem chanColumn_apply {b : ℕ} (v : (⟨1, ![b]⟩ : Shape).Idx → α)
    (hc : (⟨1, ![b]⟩ : Shape).ShapeCasts ⟨4, ![1, b, 1, 1]⟩) (q : Fin b) :
    shapeCast ⟨4, ![1, b, 1, 1]⟩ v hc (ix4 0 q 0 0) = v (ix1 q) :=
  shapeCast_apply v hc _ _ (by
    rw [Shape.rowMajor_val_four, Shape.rowMajor_val_one]
    show q.val = ((0 * b + q.val) * 1 + 0) * 1 + 0
    omega)

/-- A [1, 1, b, 1, 1] piece viewed [1, b, 1, 1] reads the same channel's entry. -/
theorem dropUnit5_apply {b : ℕ} (v : (⟨5, ![1, 1, b, 1, 1]⟩ : Shape).Idx → α)
    (hc : (⟨5, ![1, 1, b, 1, 1]⟩ : Shape).ShapeCasts ⟨4, ![1, b, 1, 1]⟩) (q : Fin b) :
    shapeCast ⟨4, ![1, b, 1, 1]⟩ v hc (ix4 0 q 0 0) = v (ix5 0 0 q 0 0) :=
  shapeCast_apply v hc _ _ (by
    rw [Shape.rowMajor_val_four, Shape.rowMajor_val_five]
    show (((0 * 1 + 0) * b + q.val) * 1 + 0) * 1 + 0 = ((0 * b + q.val) * 1 + 0) * 1 + 0
    omega)

/-- The 3x3 weights re-laid tap-major: [1, b, 3, 3] viewed [b, 3, 3], its channel axis moved last, flattened to
    [9, b] and viewed [9, 1, b, 1, 1], read at tap 3 i + j and channel q, is the weight (0, q, i, j). -/
theorem tapMajor_apply {b : ℕ} (k : (⟨4, ![1, b, 3, 3]⟩ : Shape).Idx → α)
    (h1 : (⟨4, ![1, b, 3, 3]⟩ : Shape).ShapeCasts ⟨3, ![b, 3, 3]⟩)
    (h2 : (⟨3, ![b, 3, 3]⟩ : Shape).Transposes [1, 2, 0] ⟨3, ![3, 3, b]⟩)
    (h3 : (⟨3, ![3, 3, b]⟩ : Shape).ShapeCasts ⟨2, ![9, b]⟩)
    (h4 : (⟨2, ![9, b]⟩ : Shape).ShapeCasts ⟨5, ![9, 1, b, 1, 1]⟩)
    (i j : Fin 3) (q : Fin b) (n : Fin 9) (hn : n.val = 3 * i.val + j.val) :
    shapeCast ⟨5, ![9, 1, b, 1, 1]⟩
        (shapeCast ⟨2, ![9, b]⟩ (transpose ⟨3, ![3, 3, b]⟩ [1, 2, 0] (shapeCast ⟨3, ![b, 3, 3]⟩ k h1) h2) h3) h4
        (ix5 n 0 q 0 0)
      = k (ix4 0 q i j) := by
  have hi := i.isLt
  have hj := j.isLt
  have hq := q.isLt
  rw [shapeCast_apply _ h4 (ix5 n 0 q 0 0) (ix2 n q) (by
    rw [Shape.rowMajor_val_two, Shape.rowMajor_val_five]
    show n.val * b + q.val = (((n.val * 1 + 0) * b + q.val) * 1 + 0) * 1 + 0
    simp only [Nat.mul_one, Nat.add_zero])]
  rw [shapeCast_apply _ h3 (ix2 n q) (ix3 i j q) (by
    rw [Shape.rowMajor_val_three, Shape.rowMajor_val_two]
    show (i.val * 3 + j.val) * b + q.val = n.val * b + q.val
    rw [hn, Nat.mul_comm 3 i.val])]
  rw [transpose_apply _ _ h2 (ix3 i j q) (ix3 q i j) (fun e => match e with
    | ⟨0, _⟩ => rfl
    | ⟨1, _⟩ => rfl
    | ⟨2, _⟩ => rfl)]
  exact shapeCast_apply k h1 _ _ (by
    rw [Shape.rowMajor_val_four, Shape.rowMajor_val_three]
    show ((0 * b + q.val) * 3 + i.val) * 3 + j.val = (q.val * 3 + i.val) * 3 + j.val
    simp only [Nat.zero_mul, Nat.zero_add])

end Cert.WindowLayout

end
-- ==== Proof.KernelBody.lean ====
/-
  What one grid point of the idealized kernel leaves in its output block, entry by entry.

  The body fills a [1, 64, 114, 114] scratch with the channel offsets, overwrites its inner [1, 64, 112, 112] cells
  with the image block plus the offsets, reads the nine shifted [1, 64, 112, 112] windows of that scratch back, scales
  window n by tap n's per-channel weight, folds the nine products by maximum and by minimum in tap order, and stores
  `lo + (hi - lo) * P - B`. Read at the entry (q, r, s) of the block this is `Cert.Morph.blend` of channel q's data:
  the scratch read at (q, h, w) is `Cert.Morph.padv` (the offset on the border, image plus offset inside), so window
  (i, j) at (r, s) is the padded cell (i + r, j + s).
-/
import proofs.«136081_j103079215602_1_alg».proof.Proof.Gen.KernelIdeal.Frame
import proofs.«136081_j103079215602_1_alg».proof.Proof.Spec
import proofs.«136081_j103079215602_1_alg».proof.Proof.LibWindowLayout
import Idealize.ShloMosaic.Lib.Pipeline.Value
import Idealize.ShloMosaic.Lib.Tactic

noncomputable section

namespace Cert.KernelIdeal.BodyValue

open Cert.KernelIdeal Cert.KernelIdeal.Gen Cert.Morph Cert.WindowLayout
open Idealize.ShloMosaic Idealize.ShloMosaic.TcCoe Idealize.ShloMosaic.ValueIdx Idealize.SL.Sem

theorem hz4 : (![0, 0, 0, 0] : Fin 4 → Nat) = fun _ => 0 := funext fun a => by fin_cases a <;> rfl

/-! ## The pointwise pieces of the body at an entry -/

/-- A window times a tap's weights: the window's entry times the weight of the entry's channel. -/
theorem tapProduct_apply (L : FVec Ideal S1x64x112x112 .f32) (wv : FVec Ideal S1x1x64x1x1 .f32)
    (hc : S1x1x64x1x1.ShapeCasts S1x64x1x1) (hb : S1x64x1x1.Broadcasts S1x64x112x112)
    (p : Fin 1) (q : Fin 64) (r s : Fin 112) :
    mulf L (broadcastTo S1x64x112x112 (shapeCast S1x64x1x1 wv hc) hb) (ix4 p q r s)
      = L (ix4 p q r s) * wv (ix5 0 0 q 0 0) := by
  rw [mulf_apply, chanBroadcastTo_apply (by decide) _ hb p q r s, dropUnit5_apply]

/-- What the second scratch store writes: the image block plus its channel's offset. -/
theorem inner_apply (X2 : FVec Ideal S1x64x1x1 .f32) (X0 : FVec Ideal S1x64x112x112 .f32)
    (p : Fin 1) (q : Fin 64) (r s : Fin 112) :
    k0_pay4 X2 X0 (ix4 p q r s) = X0 (ix4 p q r s) + X2 (ix4 0 q 0 0) := by
  unfold k0_pay4 k0_pay2
  rw [shapeCast_self, shapeCast_self, shapeCast_self, addf_apply, chanBroadcastTo_apply (by decide) _ _ p q r s]

/-- What the first scratch store writes: the channel's offset everywhere. -/
theorem border_apply (X2 : FVec Ideal S1x64x1x1 .f32) (p : Fin 1) (q : Fin 64) (r s : Fin 114) :
    k0_pay3 X2 (ix4 p q r s) = X2 (ix4 0 q 0 0) := by
  unfold k0_pay3 k0_pay2
  rw [shapeCast_self, shapeCast_self, shapeCast_self, chanBroadcastTo_apply (by decide) _ _ p q r s]

/-! ## The scratch after its two stores -/

/-- The scratch, read at (q, r, s) after the whole fill and the inner overwrite, is channel q's padded image. -/
theorem scratch_apply (X0 : FVec Ideal S1x64x112x112 .f32) (X2 : FVec Ideal S1x64x1x1 .f32)
    (inb1 : ∀ a, (![0, 0, 1, 1] : Fin 4 → Nat) a + S1x64x112x112.size a ≤ S1x64x114x114.size a)
    (inb0 : ∀ a, (![0, 0, 0, 0] : Fin 4 → Nat) a + S1x64x114x114.size a ≤ S1x64x114x114.size a)
    (p : Fin 1) (q : Fin 64) (r s : Fin 114) :
    View.canon (Val := Elt Ideal)
        [(⟨Rect.unit ![0, 0, 1, 1] S1x64x112x112.size inb1, k0_pay4 (F := Ideal) X2 X0⟩ : View.Piece (Elt Ideal) S1x64x114x114 .f32),
          ⟨Rect.unit ![0, 0, 0, 0] S1x64x114x114.size inb0, k0_pay3 (F := Ideal) X2⟩] (ix4 p q r s)
      = padv (fun h w => X0 (ix4 0 q h w)) (X2 (ix4 0 q 0 0)) r.val s.val := by
  obtain rfl : p = 0 := Subsingleton.elim _ _
  have hr := r.isLt
  have hs := s.isLt
  unfold padv
  by_cases hin : (1 ≤ r.val ∧ r.val ≤ 112) ∧ (1 ≤ s.val ∧ s.val ≤ 112)
  · rw [dif_pos hin]
    have e : ix4 (0 : Fin 1) q r s
        = (Rect.unit (s := S1x64x114x114) ![0, 0, 1, 1] S1x64x112x112.size inb1).emb
            (ix4 (0 : Fin 1) q (⟨r.val - 1, by omega⟩ : Fin 112) (⟨s.val - 1, by omega⟩ : Fin 112)) := by
      funext a
      apply Fin.ext
      match a with
      | ⟨0, _⟩ => rfl
      | ⟨1, _⟩ => show q.val = 0 + 1 * q.val; omega
      | ⟨2, _⟩ => show r.val = 1 + 1 * (r.val - 1); omega
      | ⟨3, _⟩ => show s.val = 1 + 1 * (s.val - 1); omega
    rw [e, View.canon_cons_emb]
    exact inner_apply X2 X0 0 q _ _
  · rw [dif_neg hin, View.canon_cons_of_not_mem _ _ (by
      rw [Rect.mem_set_unit]
      intro hm
      have h2 := hm ⟨2, by decide⟩
      have h3 := hm ⟨3, by decide⟩
      change 1 ≤ r.val ∧ r.val < 1 + 112 at h2
      change 1 ≤ s.val ∧ s.val < 1 + 112 at h3
      omega), View.canon_unit_zero hz4]
    exact border_apply X2 0 q r s

/-- Window (oi, oj) of the scratch at (q, r, s) is channel q's padded cell (oi + r, oj + s). -/
theorem window_apply {sg : RefSig} {κ : Kind} {sp : Space} (v : View sg κ sp S1x64x114x114 .f32)
    (X0 : FVec Ideal S1x64x112x112 .f32) (X2 : FVec Ideal S1x64x1x1 .f32)
    (inb1 : ∀ a, (![0, 0, 1, 1] : Fin 4 → Nat) a + (![1, 64, 112, 112] : Fin 4 → Nat) a ≤ S1x64x114x114.size a)
    (inb0 : ∀ a, (![0, 0, 0, 0] : Fin 4 → Nat) a + (![1, 64, 114, 114] : Fin 4 → Nat) a ≤ S1x64x114x114.size a)
    (oi oj : ℕ) (inb : ∀ a, (![0, 0, oi, oj] : Fin 4 → Nat) a + (![1, 64, 112, 112] : Fin 4 → Nat) a ≤ S1x64x114x114.size a)
    (p : Fin 1) (q : Fin 64) (r s : Fin 112) :
    v.readCov (Val := Elt Ideal)
        [(⟨Rect.unit ![0, 0, 1, 1] (![1, 64, 112, 112] : Fin 4 → Nat) inb1, k0_pay4 (F := Ideal) X2 X0⟩ : View.Piece (Elt Ideal) S1x64x114x114 .f32),
          ⟨Rect.unit ![0, 0, 0, 0] (![1, 64, 114, 114] : Fin 4 → Nat) inb0, k0_pay3 (F := Ideal) X2⟩]
        (Rect.unit (s := S1x64x114x114) ![0, 0, oi, oj] (![1, 64, 112, 112] : Fin 4 → Nat) inb).toLoadRect (ix4 p q r s)
      = padv (fun h w => X0 (ix4 0 q h w)) (X2 (ix4 0 q 0 0)) (oi + r.val) (oj + s.val) := by
  have hi := inb ⟨2, by decide⟩
  have hj := inb ⟨3, by decide⟩
  change oi + 112 ≤ 114 at hi
  change oj + 112 ≤ 114 at hj
  have hr := r.isLt
  have hs := s.isLt
  rw [View.readCov_eq_canon']
  have e : (Rect.unit (s := S1x64x114x114) ![0, 0, oi, oj] (![1, 64, 112, 112] : Fin 4 → Nat) inb).toLoadRect.idx (ix4 p q r s)
      = ix4 p q (⟨oi + r.val, by omega⟩ : Fin 114) (⟨oj + s.val, by omega⟩ : Fin 114) := by
    funext a
    apply Fin.ext
    match a with
    | ⟨0, _⟩ => show 0 + 1 * p.val = p.val; omega
    | ⟨1, _⟩ => show 0 + 1 * q.val = q.val; omega
    | ⟨2, _⟩ => show oi + 1 * r.val = oi + r.val; omega
    | ⟨3, _⟩ => show oj + 1 * s.val = oj + s.val; omega
  show View.canon _ ((Rect.unit (s := S1x64x114x114) ![0, 0, oi, oj] (![1, 64, 112, 112] : Fin 4 → Nat) inb).toLoadRect.idx (ix4 p q r s)) = _
  rw [e]
  exact scratch_apply X0 X2 inb1 inb0 p q _ _

/-- Tap n's weights, loaded from the tap-major block, read at channel q. -/
theorem tapLoad_apply (X1 : FVec Ideal S9x1x64x1x1 .f32) (n : ℕ)
    (inb : ∀ a, (![n, 0, 0, 0, 0] : Fin 5 → Nat) a + (![1, 1, 64, 1, 1] : Fin 5 → Nat) a ≤ S9x1x64x1x1.size a) (q : Fin 64) :
    View.ld (Val := Elt Ideal) (e' := .f32) X1 (Rect.unit (s := S9x1x64x1x1) ![n, 0, 0, 0, 0] (![1, 1, 64, 1, 1] : Fin 5 → Nat) inb) (ix5 0 0 q 0 0)
      = X1 (ix5 (⟨n, by have := inb ⟨0, by decide⟩; change n + 1 ≤ 9 at this; omega⟩ : Fin 9) 0 q 0 0) := by
  refine congrArg X1 (funext fun a => Fin.ext ?_)
  match a with
  | ⟨0, _⟩ => show n + 1 * 0 = n; omega
  | ⟨1, _⟩ => show 0 + 1 * 0 = 0; omega
  | ⟨2, _⟩ => show 0 + 1 * q.val = q.val; omega
  | ⟨3, _⟩ => show 0 + 1 * 0 = 0; omega
  | ⟨4, _⟩ => show 0 + 1 * 0 = 0; omega

/-! ## The stored value from its loads -/

/-- The stored value at (q, r, s) in terms of the nine windows `L n`, the nine weight loads `W n`, the offset column
    `v0` and the blending column `v75`: the nine products folded by minimum and maximum in tap order, blended, the
    offset taken away. -/
theorem stored_apply (v0 v75 : FVec Ideal S1x64x1x1 .f32)
    (L0 L1 L2 L3 L4 L5 L6 L7 L8 : FVec Ideal S1x64x112x112 .f32)
    (W0 W1 W2 W3 W4 W5 W6 W7 W8 : FVec Ideal S1x1x64x1x1 .f32)
    (p : Fin 1) (q : Fin 64) (r s : Fin 112) :
    k0_pay1 (k0_pay2 v0)
        (k0_pay17 (k0_pay11 (k0_pay5 L0 W0) L1 (k0_pay6 W1) L2 W2 L3 W3 L4 W4) L5 W5 L6 W6 L7 W7 L8 W8)
        (k0_pay18 (k0_pay12 (k0_pay5 L0 W0) L1 (k0_pay6 W1) L2 W2 L3 W3 L4 W4) L5 W5 L6 W6 L7 W7 L8 W8)
        v75 (ix4 p q r s)
      = min (min (min (min (min (min (min (min
              (L0 (ix4 p q r s) * W0 (ix5 0 0 q 0 0)) (L1 (ix4 p q r s) * W1 (ix5 0 0 q 0 0)))
              (L2 (ix4 p q r s) * W2 (ix5 0 0 q 0 0))) (L3 (ix4 p q r s) * W3 (ix5 0 0 q 0 0)))
              (L4 (ix4 p q r s) * W4 (ix5 0 0 q 0 0))) (L5 (ix4 p q r s) * W5 (ix5 0 0 q 0 0)))
              (L6 (ix4 p q r s) * W6 (ix5 0 0 q 0 0))) (L7 (ix4 p q r s) * W7 (ix5 0 0 q 0 0)))
              (L8 (ix4 p q r s) * W8 (ix5 0 0 q 0 0))
          + (max (max (max (max (max (max (max (max
              (L0 (ix4 p q r s) * W0 (ix5 0 0 q 0 0)) (L1 (ix4 p q r s) * W1 (ix5 0 0 q 0 0)))
              (L2 (ix4 p q r s) * W2 (ix5 0 0 q 0 0))) (L3 (ix4 p q r s) * W3 (ix5 0 0 q 0 0)))
              (L4 (ix4 p q r s) * W4 (ix5 0 0 q 0 0))) (L5 (ix4 p q r s) * W5 (ix5 0 0 q 0 0)))
              (L6 (ix4 p q r s) * W6 (ix5 0 0 q 0 0))) (L7 (ix4 p q r s) * W7 (ix5 0 0 q 0 0)))
              (L8 (ix4 p q r s) * W8 (ix5 0 0 q 0 0))
            - min (min (min (min (min (min (min (min
              (L0 (ix4 p q r s) * W0 (ix5 0 0 q 0 0)) (L1 (ix4 p q r s) * W1 (ix5 0 0 q 0 0)))
              (L2 (ix4 p q r s) * W2 (ix5 0 0 q 0 0))) (L3 (ix4 p q r s) * W3 (ix5 0 0 q 0 0)))
              (L4 (ix4 p q r s) * W4 (ix5 0 0 q 0 0))) (L5 (ix4 p q r s) * W5 (ix5 0 0 q 0 0)))
              (L6 (ix4 p q r s) * W6 (ix5 0 0 q 0 0))) (L7 (ix4 p q r s) * W7 (ix5 0 0 q 0 0)))
              (L8 (ix4 p q r s) * W8 (ix5 0 0 q 0 0))) * v75 (ix4 0 q 0 0)
          - v0 (ix4 0 q 0 0) := by
  unfold k0_pay1 k0_pay17 k0_pay18 k0_pay11 k0_pay12 k0_pay5 k0_pay6 k0_pay7 k0_pay8 k0_pay9 k0_pay10 k0_pay13 k0_pay14
    k0_pay15 k0_pay16 k0_pay2
  simp only [shapeCast_self]
  rw [subf_apply, addf_apply, mulf_apply, subf_apply]
  simp only [maximumf_apply, minimumf_apply]
  rw [tapProduct_apply L0, tapProduct_apply L1, tapProduct_apply L2, tapProduct_apply L3, tapProduct_apply L4,
    tapProduct_apply L5, tapProduct_apply L6, tapProduct_apply L7, tapProduct_apply L8,
    chanBroadcastTo_apply (by decide) v75 _ p q r s, chanBroadcastTo_apply (by decide) v0 _ p q r s]

/-! ## The block one grid point leaves -/

/-- Tap (a, b)'s position in the tap-major weight block. -/
abbrev tapIx (a b : Fin 3) : Fin 9 := ⟨3 * a.val + b.val, by omega⟩

/-- What the body leaves in its output block from the blocks it is handed — the image block `X0`, the tap-major
    weights `X1`, the offset column `X2` and the blending column `X3` —, at the entry (q, r, s). -/
theorem block_apply (c : Dev nD) (i : grid0.Coords) (a1 : Memref sig .tc .vmem S1x64x112x112 .f32) (h1 : a1.IsWhole) (a2 : Memref sig .tc .vmem S9x1x64x1x1 .f32) (h2 : a2.IsWhole) (a3 : Memref sig .tc .vmem S1x64x1x1 .f32) (h3 : a3.IsWhole) (a4 : Memref sig .tc .vmem S1x64x1x1 .f32) (h4 : a4.IsWhole) (a5 : Memref sig .tc .vmem S1x64x112x112 .f32) (h5 : a5.IsWhole) (a6 : Memref sig .tc .vmem S1x64x114x114 .f32) (h6 : a6.IsWhole)
    (X0 : Vec Ideal S1x64x112x112 .f32) (X1 : Vec Ideal S9x1x64x1x1 .f32) (X2 X3 : Vec Ideal S1x64x1x1 .f32)
    (p : Fin 1) (q : Fin 64) (r s : Fin 112) :
    out0_A_4 (F := Ideal) c i a1 h1 a2 h2 a3 h3 a4 h4 a5 h5 a6 h6 X0 X1 X2 X3 (ix4 p q r s)
      = blend (fun h w => X0 (ix4 0 q h w)) (fun a b => X1 (ix5 (tapIx a b) 0 q 0 0))
          (X2 (ix4 0 q 0 0)) (X3 (ix4 0 q 0 0)) r s := by
  unfold out0_A_4
  rw [View.read_writes_eq_canon _ _ _ (cover0_A_4 c i a1 h1 a2 h2 a3 h3 a4 h4 a5 h5 a6 h6 X0 X1 X2 X3)]
  unfold kernelRun0_A
  dsimp only
  sl_unfold_words
  rw [View.canon_unit_zero hz4]
  simp only [View.readAt_eq_ld, h1.read_unread, h2.read_unread, h3.read_unread, h4.read_unread,
    View.ld_unit_zero (S := S1x64x112x112) hz4, View.ld_unit_zero (S := S1x64x1x1) hz4]
  refine (stored_apply _ _ _ _ _ _ _ _ _ _ _ _ _ _ _ _ _ _ _ _ p q r s).trans ?_
  simp only [window_apply]
  rw [tapLoad_apply X1 0, tapLoad_apply X1 1, tapLoad_apply X1 2, tapLoad_apply X1 3, tapLoad_apply X1 4,
    tapLoad_apply X1 5, tapLoad_apply X1 6, tapLoad_apply X1 7, tapLoad_apply X1 8]
  rfl

end Cert.KernelIdeal.BodyValue

end
-- ==== Proof.KernelValue.lean ====
/-
  The idealized kernel's result array is `Cert.Morph.G` of its four argument arrays.

  The region's four input arrays are: the image itself; the weights re-laid tap-major by the host
  ([1, 64, 3, 3] → [64, 3, 3] → [3, 3, 64] → [9, 64] → [9, 1, 64, 1, 1]); the offsets times ten viewed [1, 64, 1, 1];
  and the blending weights `1 / (1 + exp (-(perc * 10)))` viewed [1, 64, 1, 1]. Grid point t stages image t, the whole
  of the three small arrays, and writes back block t of the result; the sixteen blocks tile the result array.
-/
import proofs.«136081_j103079215602_1_alg».proof.Proof.Gen.KernelIdeal.Value
import proofs.«136081_j103079215602_1_alg».proof.Proof.KernelBody
import Idealize.ShloMosaic.Lib.StableHlo.Run

noncomputable section

namespace Cert.KernelIdeal.ArrayValue

open Cert.KernelIdeal Cert.KernelIdeal.Gen Cert.KernelIdeal.BodyValue Cert.Morph Cert.WindowLayout
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The offsets' array: the offsets times ten, viewed [1, 64, 1, 1]. -/
theorem offsets_eq (c : Dev nD) :
    (V m c main_v10 : S1x64x1x1.Idx → Elt Ideal .f32)
      = shapeCast S1x64x1x1 (biasTen (m ((c : Thread nD τ).loc main_arg2)) bcast_S_S64) shapeCasts_S64_S1x64x1x1 := by
  dsimp only [Gen.V, Gen.hostOps0]
  after_results
  rfl

/-- The blending weights' array, viewed [1, 64, 1, 1]. -/
theorem blends_eq (c : Dev nD) :
    (V m c main_v11 : S1x64x1x1.Idx → Elt Ideal .f32)
      = shapeCast S1x64x1x1 (sigTen (m ((c : Thread nD τ).loc main_arg3)) bcast_S_S64) shapeCasts_S64_S1x64x1x1 := by
  dsimp only [Gen.V, Gen.hostOps0]
  after_results
  rfl

/-- The tap-major weights' array. -/
theorem weights_eq (c : Dev nD) :
    (V m c main_v15 : S9x1x64x1x1.Idx → Elt Ideal .f32)
      = shapeCast S9x1x64x1x1 (shapeCast S9x64 (transpose S3x3x64 [1, 2, 0]
          (shapeCast S64x3x3 (m ((c : Thread nD τ).loc main_arg1)) shapeCasts_S1x64x3x3_S64x3x3)
          transposes_S64x3x3_S3x3x64_1_2_0) shapeCasts_S3x3x64_S9x64) shapeCasts_S9x64_S9x1x64x1x1 := by
  dsimp only [Gen.V, Gen.hostOps0]
  after_results
  rfl

/-! ## The blocks a grid point is handed -/

/-- The printed index maps over the sixteen grid points: the image's and the result's block index is the point on the
    leading axis, every other block index is zero. -/
theorem index_facts : ∀ t : Fin cfg0.N,
    (win0_0.index t (0 : Fin 4) = t.val ∧ win0_0.index t (1 : Fin 4) = 0 ∧ win0_0.index t (2 : Fin 4) = 0
      ∧ win0_0.index t (3 : Fin 4) = 0)
    ∧ (win0_4.index t (0 : Fin 4) = t.val ∧ win0_4.index t (1 : Fin 4) = 0 ∧ win0_4.index t (2 : Fin 4) = 0
      ∧ win0_4.index t (3 : Fin 4) = 0)
    ∧ (win0_1.index t (0 : Fin 5) = 0 ∧ win0_1.index t (1 : Fin 5) = 0 ∧ win0_1.index t (2 : Fin 5) = 0
      ∧ win0_1.index t (3 : Fin 5) = 0 ∧ win0_1.index t (4 : Fin 5) = 0)
    ∧ (win0_2.index t (0 : Fin 4) = 0 ∧ win0_2.index t (1 : Fin 4) = 0 ∧ win0_2.index t (2 : Fin 4) = 0
      ∧ win0_2.index t (3 : Fin 4) = 0)
    ∧ (win0_3.index t (0 : Fin 4) = 0 ∧ win0_3.index t (1 : Fin 4) = 0 ∧ win0_3.index t (2 : Fin 4) = 0
      ∧ win0_3.index t (3 : Fin 4) = 0) :=
  (by decide +kernel : ∀ t : Fin grid0.N, _)

/-- The image block at point t is image t of the argument. -/
theorem imageBlock_apply (c : Dev nD) (t : Fin cfg0.N) (tb : Fin 16) (htb : tb.val = t.val)
    (p : Fin 1) (q : Fin 64) (r s : Fin 112) :
    (iblk m c 0 t : Vec Ideal S1x64x112x112 .f32) (ix4 p q r s)
      = (m ((c : Thread nD τ).loc main_arg0) : S16x64x112x112.Idx → Elt Ideal .f32) (ix4 tb q r s) := by
  obtain ⟨⟨e0, e1, e2, e3⟩, -⟩ := index_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * p.val = tb.val; rw [e0, htb]; omega
  | ⟨1, _⟩ => show win0_0.index t (1 : Fin 4) * 64 + 1 * q.val = q.val; rw [e1]; omega
  | ⟨2, _⟩ => show win0_0.index t (2 : Fin 4) * 112 + 1 * r.val = r.val; rw [e2]; omega
  | ⟨3, _⟩ => show win0_0.index t (3 : Fin 4) * 112 + 1 * s.val = s.val; rw [e3]; omega

/-- The weights' block at any point is the whole tap-major array: tap 3 a + b and channel q is the weight (0, q, a, b). -/
theorem weightBlock_apply (c : Dev nD) (t : Fin cfg0.N) (q : Fin 64) (a b : Fin 3) :
    (iblk m c 1 t : Vec Ideal S9x1x64x1x1 .f32) (ix5 (tapIx a b) 0 q 0 0)
      = (m ((c : Thread nD τ).loc main_arg1) : S1x64x3x3.Idx → Elt Ideal .f32) (ix4 0 q a b) := by
  obtain ⟨-, -, ⟨e0, e1, e2, e3, e4⟩, -⟩ := index_facts t
  unfold iblk
  rw [View.read_apply]
  show V m c main_v15 _ = _
  have ei : ((cfg0.win 1).blk t).view.emb (ix5 (tapIx a b) (0 : Fin 1) q (0 : Fin 1) (0 : Fin 1)) = ix5 (tapIx a b) (0 : Fin 1) q (0 : Fin 1) (0 : Fin 1) := by
    refine funext fun e => Fin.ext ?_
    match e with
    | ⟨0, _⟩ => show win0_1.index t (0 : Fin 5) * 9 + 1 * (tapIx a b).val = (tapIx a b).val; rw [e0]; omega
    | ⟨1, _⟩ => show win0_1.index t (1 : Fin 5) * 1 + 1 * 0 = 0; rw [e1]
    | ⟨2, _⟩ => show win0_1.index t (2 : Fin 5) * 64 + 1 * q.val = q.val; rw [e2]; omega
    | ⟨3, _⟩ => show win0_1.index t (3 : Fin 5) * 1 + 1 * 0 = 0; rw [e3]
    | ⟨4, _⟩ => show win0_1.index t (4 : Fin 5) * 1 + 1 * 0 = 0; rw [e4]
  rw [ei, weights_eq]
  exact tapMajor_apply _ _ _ _ _ a b q (tapIx a b) rfl

/-- The offsets' block at any point is the whole column: channel q holds the offset times ten. -/
theorem offsetBlock_apply (c : Dev nD) (t : Fin cfg0.N) (q : Fin 64) :
    (iblk m c 2 t : Vec Ideal S1x64x1x1 .f32) (ix4 0 q 0 0)
      = biasTen (m ((c : Thread nD τ).loc main_arg2)) bcast_S_S64 (ix1 q) := by
  obtain ⟨-, -, -, ⟨e0, e1, e2, e3⟩, -⟩ := index_facts t
  unfold iblk
  rw [View.read_apply]
  show V m c main_v10 _ = _
  have ei : ((cfg0.win 2).blk t).view.emb (ix4 (0 : Fin 1) q (0 : Fin 1) (0 : Fin 1)) = ix4 (0 : Fin 1) q (0 : Fin 1) (0 : Fin 1) := by
    refine funext fun e => Fin.ext ?_
    match e with
    | ⟨0, _⟩ => show win0_2.index t (0 : Fin 4) * 1 + 1 * 0 = 0; rw [e0]
    | ⟨1, _⟩ => show win0_2.index t (1 : Fin 4) * 64 + 1 * q.val = q.val; rw [e1]; omega
    | ⟨2, _⟩ => show win0_2.index t (2 : Fin 4) * 1 + 1 * 0 = 0; rw [e2]
    | ⟨3, _⟩ => show win0_2.index t (3 : Fin 4) * 1 + 1 * 0 = 0; rw [e3]
  rw [ei, offsets_eq]
  exact chanColumn_apply _ _ q

/-- The blending weights' block at any point is the whole column. -/
theorem blendBlock_apply (c : Dev nD) (t : Fin cfg0.N) (q : Fin 64) :
    (iblk m c 3 t : Vec Ideal S1x64x1x1 .f32) (ix4 0 q 0 0)
      = sigTen (m ((c : Thread nD τ).loc main_arg3)) bcast_S_S64 (ix1 q) := by
  obtain ⟨-, -, -, -, ⟨e0, e1, e2, e3⟩⟩ := index_facts t
  unfold iblk
  rw [View.read_apply]
  show V m c main_v11 _ = _
  have ei : ((cfg0.win 3).blk t).view.emb (ix4 (0 : Fin 1) q (0 : Fin 1) (0 : Fin 1)) = ix4 (0 : Fin 1) q (0 : Fin 1) (0 : Fin 1) := by
    refine funext fun e => Fin.ext ?_
    match e with
    | ⟨0, _⟩ => show win0_3.index t (0 : Fin 4) * 1 + 1 * 0 = 0; rw [e0]
    | ⟨1, _⟩ => show win0_3.index t (1 : Fin 4) * 64 + 1 * q.val = q.val; rw [e1]; omega
    | ⟨2, _⟩ => show win0_3.index t (2 : Fin 4) * 1 + 1 * 0 = 0; rw [e2]
    | ⟨3, _⟩ => show win0_3.index t (3 : Fin 4) * 1 + 1 * 0 = 0; rw [e3]
  rw [ei, blends_eq]
  exact chanColumn_apply _ _ q

/-! ## From the blocks to the array -/

/-- The layer of the argument arrays as the launch finds them. -/
abbrev result (c : Dev nD) : Buf (Elt Ideal) ((c : Thread nD τ).loc main_v16) :=
  G (m ((c : Thread nD τ).loc main_arg0)) (m ((c : Thread nD τ).loc main_arg1)) (m ((c : Thread nD τ).loc main_arg2))
    (m ((c : Thread nD τ).loc main_arg3)) bcast_S_S64

/-- What point t writes back is block t of the layer's result. -/
theorem flushed_eq (c : Dev nD) (t : Fin cfg0.N) :
    (dats m 0 c).flushed 4 t = ((cfg0.win 4).blk t).view.read (Elt Ideal) (result m c) := by
  have hN : cfg0.N = 16 := N_0
  obtain ⟨-, ⟨e0, e1, e2, e3⟩, -⟩ := index_facts t
  show (cfg0.win 4).cut (grid0.coords t) ((dats m 0 c).after 4 t) = _
  rw [after0_4]
  unfold outsAt0
  funext j
  obtain ⟨p, q, r, s, rfl⟩ : ∃ (p : Fin 1) (q : Fin 64) (r s : Fin 112), j = ix4 p q r s :=
    ⟨j 0, j 1, j 2, j 3, eq_ix4 j⟩
  refine (block_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 0 t) (iblk m c 1 t) (iblk m c 2 t) (iblk m c 3 t)
    p q r s).trans ?_
  have ei : ((cfg0.win 4).blk t).view.emb (ix4 p q r s) = ix4 (⟨t.val, by omega⟩ : Fin 16) q r s := by
    refine funext fun e => Fin.ext ?_
    match e with
    | ⟨0, _⟩ => show win0_4.index t (0 : Fin 4) * 1 + 1 * p.val = t.val; rw [e0]; omega
    | ⟨1, _⟩ => show win0_4.index t (1 : Fin 4) * 64 + 1 * q.val = q.val; rw [e1]; omega
    | ⟨2, _⟩ => show win0_4.index t (2 : Fin 4) * 112 + 1 * r.val = r.val; rw [e2]; omega
    | ⟨3, _⟩ => show win0_4.index t (3 : Fin 4) * 112 + 1 * s.val = s.val; rw [e3]; omega
  show _ = result m c (((cfg0.win 4).blk t).view.emb (ix4 p q r s))
  rw [ei]
  show _ = blend (fun h w => (m ((c : Thread nD τ).loc main_arg0) : S16x64x112x112.Idx → Elt Ideal .f32) (ix4 (⟨t.val, by omega⟩ : Fin 16) q h w))
    (fun a b => (m ((c : Thread nD τ).loc main_arg1) : S1x64x3x3.Idx → Elt Ideal .f32) (ix4 0 q a b))
    (biasTen (m ((c : Thread nD τ).loc main_arg2)) bcast_S_S64 (ix1 q))
    (sigTen (m ((c : Thread nD τ).loc main_arg3)) bcast_S_S64 (ix1 q)) r s
  rw [show (fun h w => (iblk m c 0 t : Vec Ideal S1x64x112x112 .f32) (ix4 0 q h w))
        = fun h w => (m ((c : Thread nD τ).loc main_arg0) : S16x64x112x112.Idx → Elt Ideal .f32) (ix4 (⟨t.val, by omega⟩ : Fin 16) q h w)
      from funext fun h => funext fun w => imageBlock_apply m c t _ rfl 0 q h w,
    show (fun a b => (iblk m c 1 t : Vec Ideal S9x1x64x1x1 .f32) (ix5 (tapIx a b) 0 q 0 0))
        = fun a b => (m ((c : Thread nD τ).loc main_arg1) : S1x64x3x3.Idx → Elt Ideal .f32) (ix4 0 q a b)
      from funext fun a => funext fun b => weightBlock_apply m c t q a b,
    offsetBlock_apply m c t q, blendBlock_apply m c t q]

/-- The sixteen blocks tile the result array, so it ends holding the layer's result. -/
theorem final (c : Dev nD) : (dats m 0 c).arrAt 4 cfg0.N = result m c :=
  (dats m 0 c).arrAt_eq_of_cover 4 (result m c) (fun t _ => flushed_eq m c t) fun i => by
    have hN : cfg0.N = 16 := N_0
    have h0 : (i 0 : Nat) < 16 := (i 0).isLt
    have h1 : (i 1 : Nat) < 64 := (i 1).isLt
    have h2 : (i 2 : Nat) < 112 := (i 2).isLt
    have h3 : (i 3 : Nat) < 112 := (i 3).isLt
    have ht : (i 0 : Nat) < cfg0.N := by omega
    refine ⟨⟨(i 0 : Nat), ht⟩, flush0_4 _, ?_⟩
    obtain ⟨-, ⟨e0, e1, e2, e3⟩, -⟩ := index_facts ⟨(i 0 : Nat), ht⟩
    have e0' : win0_4.index ⟨(i 0 : Nat), ht⟩ (0 : Fin 4) = (i 0 : Nat) := e0
    show i ∈ ((View.whole main_v16).slice (win0_4.rect ⟨(i 0 : Nat), ht⟩)).set
    rw [View.set_slice_whole, Rect.mem_set_unit]
    intro a
    match a with
    | ⟨0, _⟩ => show win0_4.index ⟨(i 0 : Nat), ht⟩ (0 : Fin 4) * 1 ≤ (i 0 : Nat) ∧ (i 0 : Nat) < win0_4.index ⟨(i 0 : Nat), ht⟩ (0 : Fin 4) * 1 + 1; rw [e0']; omega
    | ⟨1, _⟩ => show win0_4.index ⟨(i 0 : Nat), ht⟩ (1 : Fin 4) * 64 ≤ (i 1 : Nat) ∧ (i 1 : Nat) < win0_4.index ⟨(i 0 : Nat), ht⟩ (1 : Fin 4) * 64 + 64; rw [e1]; omega
    | ⟨2, _⟩ => show win0_4.index ⟨(i 0 : Nat), ht⟩ (2 : Fin 4) * 112 ≤ (i 2 : Nat) ∧ (i 2 : Nat) < win0_4.index ⟨(i 0 : Nat), ht⟩ (2 : Fin 4) * 112 + 112; rw [e2]; omega
    | ⟨3, _⟩ => show win0_4.index ⟨(i 0 : Nat), ht⟩ (3 : Fin 4) * 112 ≤ (i 3 : Nat) ∧ (i 3 : Nat) < win0_4.index ⟨(i 0 : Nat), ht⟩ (3 : Fin 4) * 112 + 112; rw [e3]; omega

/-- The kernel's run, read: the result array at the layer's result, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference computes `Cert.Morph.G`.

  Its padded array plus the broadcast offsets is `Cert.Morph.padv` of each channel (the padding value is the integer 0
  converted, and 0 + B = B on the extended reals); its nine shifted slices times the nine weight slices are the nine
  taps; the running maximum and minimum fold them in row-major order; the blend and the final subtraction are `blend`'s.
-/
import proofs.«136081_j103079215602_1_alg».proof.Proof.Gen.ReferenceIdeal.Read
import proofs.«136081_j103079215602_1_alg».proof.Proof.Spec
import proofs.«136081_j103079215602_1_alg».proof.Proof.LibWindowLayout

noncomputable section

namespace Cert.ReferenceIdeal.RefValue

open Cert.ReferenceIdeal Cert.ReferenceIdeal.Gen Cert.ReferenceIdeal.Read Cert.Morph Cert.WindowLayout
open Idealize.ShloMosaic Idealize.ShloMosaic.ValueIdx

/-- The padding value: the integer 0, converted, is the extended real 0. -/
theorem padValue : FloatOps.sitofp (F := Ideal) .f32 (0#32 : BitVec 32) = (0 : EReal) := by
  show (((0#32 : BitVec 32).toInt : ℝ) : EReal) = 0
  simp

/-- The padded image plus the spread offsets, at (b, c, h, w) with h, w in [0, 114): channel c's padded cell. -/
theorem padded_apply (x0 : FVec Ideal S16x64x112x112 .f32) (x2 : FVec Ideal S64 .f32)
    (b : Fin 16) (c : Fin 64) (h w : Fin 114) :
    val_main_v5 (F := Ideal) x0 x2 (ix4 b c h w)
      = padv (fun h' w' => x0 (ix4 b c h' w')) (biasTen x2 bcast_S_S64 (ix1 c)) h.val w.val := by
  show val_main_v0 (F := Ideal) x0 (ix4 b c h w) + val_main_v4 (F := Ideal) x2 (ix4 b c h w) = _
  have e4 : val_main_v4 (F := Ideal) x2 (ix4 b c h w) = biasTen x2 bcast_S_S64 (ix1 c) := by
    unfold val_main_v4 val_main_v3
    exact chanBroadcastInDim_apply (by decide) _ _ _ b c h w
  rw [e4]
  unfold val_main_v0 padv
  rw [pad4_apply (h := 112) (w := 112) x0 _ _ _ b c h w]
  by_cases hin : (1 ≤ h.val ∧ h.val ≤ 112) ∧ (1 ≤ w.val ∧ w.val ≤ 112)
  · rw [dif_pos hin, dif_pos hin]
  · rw [dif_neg hin, dif_neg hin]
    show FloatOps.sitofp (F := Ideal) .f32 (0#32 : BitVec 32) + _ = _
    rw [padValue, zero_add]

/-- Tap (0, 0) of the reference at (b, c, h, w). -/
theorem tap0_apply (x0 : FVec Ideal S16x64x112x112 .f32) (x1 : FVec Ideal S1x64x3x3 .f32) (x2 : FVec Ideal S64 .f32)
    (b : Fin 16) (c : Fin 64) (h w : Fin 112) :
    val_main_v11 (F := Ideal) x0 x1 x2 (ix4 b c h w)
      = tapv (fun h' w' => x0 (ix4 b c h' w')) (fun a b' => x1 (ix4 0 c a b')) (biasTen x2 bcast_S_S64 (ix1 c)) h w 0 0 := by
  have hh := h.isLt
  have hw := w.isLt
  show val_main_v6 (F := Ideal) x0 x2 (ix4 b c h w) * val_main_v10 (F := Ideal) x1 (ix4 b c h w) = _
  unfold val_main_v6 val_main_v10 val_main_v9 val_main_v8 val_main_v7
  rw [slice4_apply 0 0 _ _ b c h w (by omega) (by omega), padded_apply,
    chanBroadcastInDim_apply (by decide) _ _ _ b c h w, tapWeight_apply 0 0 x1 _ _ c (by decide) (by decide)]
  rfl

/-- Tap (0, 1) of the reference at (b, c, h, w). -/
theorem tap1_apply (x0 : FVec Ideal S16x64x112x112 .f32) (x1 : FVec Ideal S1x64x3x3 .f32) (x2 : FVec Ideal S64 .f32)
    (b : Fin 16) (c : Fin 64) (h w : Fin 112) :
    val_main_v17 (F := Ideal) x0 x1 x2 (ix4 b c h w)
      = tapv (fun h' w' => x0 (ix4 b c h' w')) (fun a b' => x1 (ix4 0 c a b')) (biasTen x2 bcast_S_S64 (ix1 c)) h w 0 1 := by
  have hh := h.isLt
  have hw := w.isLt
  show val_main_v12 (F := Ideal) x0 x2 (ix4 b c h w) * val_main_v16 (F := Ideal) x1 (ix4 b c h w) = _
  unfold val_main_v12 val_main_v16 val_main_v15 val_main_v14 val_main_v13
  rw [slice4_apply 0 1 _ _ b c h w (by omega) (by omega), padded_apply,
    chanBroadcastInDim_apply (by decide) _ _ _ b c h w, tapWeight_apply 0 1 x1 _ _ c (by decide) (by decide)]
  rfl

/-- Tap (0, 2) of the reference at (b, c, h, w). -/
theorem tap2_apply (x0 : FVec Ideal S16x64x112x112 .f32) (x1 : FVec Ideal S1x64x3x3 .f32) (x2 : FVec Ideal S64 .f32)
    (b : Fin 16) (c : Fin 64) (h w : Fin 112) :
    val_main_v25 (F := Ideal) x0 x1 x2 (ix4 b c h w)
      = tapv (fun h' w' => x0 (ix4 b c h' w')) (fun a b' => x1 (ix4 0 c a b')) (biasTen x2 bcast_S_S64 (ix1 c)) h w 0 2 := by
  have hh := h.isLt
  have hw := w.isLt
  show val_main_v20 (F := Ideal) x0 x2 (ix4 b c h w) * val_main_v24 (F := Ideal) x1 (ix4 b c h w) = _
  unfold val_main_v20 val_main_v24 val_main_v23 val_main_v22 val_main_v21
  rw [slice4_apply 0 2 _ _ b c h w (by omega) (by omega), padded_apply,
    chanBroadcastInDim_apply (by decide) _ _ _ b c h w, tapWeight_apply 0 2 x1 _ _ c (by decide) (by decide)]
  rfl

/-- Tap (1, 0) of the reference at (b, c, h, w). -/
theorem tap3_apply (x0 : FVec Ideal S16x64x112x112 .f32) (x1 : FVec Ideal S1x64x3x3 .f32) (x2 : FVec Ideal S64 .f32)
    (b : Fin 16) (c : Fin 64) (h w : Fin 112) :
    val_main_v33 (F := Ideal) x0 x1 x2 (ix4 b c h w)
      = tapv (fun h' w' => x0 (ix4 b c h' w')) (fun a b' => x1 (ix4 0 c a b')) (biasTen x2 bcast_S_S64 (ix1 c)) h w 1 0 := by
  have hh := h.isLt
  have hw := w.isLt
  show val_main_v28 (F := Ideal) x0 x2 (ix4 b c h w) * val_main_v32 (F := Ideal) x1 (ix4 b c h w) = _
  unfold val_main_v28 val_main_v32 val_main_v31 val_main_v30 val_main_v29
  rw [slice4_apply 1 0 _ _ b c h w (by omega) (by omega), padded_apply,
    chanBroadcastInDim_apply (by decide) _ _ _ b c h w, tapWeight_apply 1 0 x1 _ _ c (by decide) (by decide)]
  rfl

/-- Tap (1, 1) of the reference at (b, c, h, w). -/
theorem tap4_apply (x0 : FVec Ideal S16x64x112x112 .f32) (x1 : FVec Ideal S1x64x3x3 .f32) (x2 : FVec Ideal S64 .f32)
    (b : Fin 16) (c : Fin 64) (h w : Fin 112) :
    val_main_v41 (F := Ideal) x0 x1 x2 (ix4 b c h w)
      = tapv (fun h' w' => x0 (ix4 b c h' w')) (fun a b' => x1 (ix4 0 c a b')) (biasTen x2 bcast_S_S64 (ix1 c)) h w 1 1 := by
  have hh := h.isLt
  have hw := w.isLt
  show val_main_v36 (F := Ideal) x0 x2 (ix4 b c h w) * val_main_v40 (F := Ideal) x1 (ix4 b c h w) = _
  unfold val_main_v36 val_main_v40 val_main_v39 val_main_v38 val_main_v37
  rw [slice4_apply 1 1 _ _ b c h w (by omega) (by omega), padded_apply,
    chanBroadcastInDim_apply (by decide) _ _ _ b c h w, tapWeight_apply 1 1 x1 _ _ c (by decide) (by decide)]
  rfl

/-- Tap (1, 2) of the reference at (b, c, h, w). -/
theorem tap5_apply (x0 : FVec Ideal S16x64x112x112 .f32) (x1 : FVec Ideal S1x64x3x3 .f32) (x2 : FVec Ideal S64 .f32)
    (b : Fin 16) (c : Fin 64) (h w : Fin 112) :
    val_main_v49 (F := Ideal) x0 x1 x2 (ix4 b c h w)
      = tapv (fun h' w' => x0 (ix4 b c h' w')) (fun a b' => x1 (ix4 0 c a b')) (biasTen x2 bcast_S_S64 (ix1 c)) h w 1 2 := by
  have hh := h.isLt
  have hw := w.isLt
  show val_main_v44 (F := Ideal) x0 x2 (ix4 b c h w) * val_main_v48 (F := Ideal) x1 (ix4 b c h w) = _
  unfold val_main_v44 val_main_v48 val_main_v47 val_main_v46 val_main_v45
  rw [slice4_apply 1 2 _ _ b c h w (by omega) (by omega), padded_apply,
    chanBroadcastInDim_apply (by decide) _ _ _ b c h w, tapWeight_apply 1 2 x1 _ _ c (by decide) (by decide)]
  rfl

/-- Tap (2, 0) of the reference at (b, c, h, w). -/
theorem tap6_apply (x0 : FVec Ideal S16x64x112x112 .f32) (x1 : FVec Ideal S1x64x3x3 .f32) (x2 : FVec Ideal S64 .f32)
    (b : Fin 16) (c : Fin 64) (h w : Fin 112) :
    val_main_v57 (F := Ideal) x0 x1 x2 (ix4 b c h w)
      = tapv (fun h' w' => x0 (ix4 b c h' w')) (fun a b' => x1 (ix4 0 c a b')) (biasTen x2 bcast_S_S64 (ix1 c)) h w 2 0 := by
  have hh := h.isLt
  have hw := w.isLt
  show val_main_v52 (F := Ideal) x0 x2 (ix4 b c h w) * val_main_v56 (F := Ideal) x1 (ix4 b c h w) = _
  unfold val_main_v52 val_main_v56 val_main_v55 val_main_v54 val_main_v53
  rw [slice4_apply 2 0 _ _ b c h w (by omega) (by omega), padded_apply,
    chanBroadcastInDim_apply (by decide) _ _ _ b c h w, tapWeight_apply 2 0 x1 _ _ c (by decide) (by decide)]
  rfl

/-- Tap (2, 1) of the reference at (b, c, h, w). -/
theorem tap7_apply (x0 : FVec Ideal S16x64x112x112 .f32) (x1 : FVec Ideal S1x64x3x3 .f32) (x2 : FVec Ideal S64 .f32)
    (b : Fin 16) (c : Fin 64) (h w : Fin 112) :
    val_main_v65 (F := Ideal) x0 x1 x2 (ix4 b c h w)
      = tapv (fun h' w' => x0 (ix4 b c h' w')) (fun a b' => x1 (ix4 0 c a b')) (biasTen x2 bcast_S_S64 (ix1 c)) h w 2 1 := by
  have hh := h.isLt
  have hw := w.isLt
  show val_main_v60 (F := Ideal) x0 x2 (ix4 b c h w) * val_main_v64 (F := Ideal) x1 (ix4 b c h w) = _
  unfold val_main_v60 val_main_v64 val_main_v63 val_main_v62 val_main_v61
  rw [slice4_apply 2 1 _ _ b c h w (by omega) (by omega), padded_apply,
    chanBroadcastInDim_apply (by decide) _ _ _ b c h w, tapWeight_apply 2 1 x1 _ _ c (by decide) (by decide)]
  rfl

/-- Tap (2, 2) of the reference at (b, c, h, w). -/
theorem tap8_apply (x0 : FVec Ideal S16x64x112x112 .f32) (x1 : FVec Ideal S1x64x3x3 .f32) (x2 : FVec Ideal S64 .f32)
    (b : Fin 16) (c : Fin 64) (h w : Fin 112) :
    val_main_v73 (F := Ideal) x0 x1 x2 (ix4 b c h w)
      = tapv (fun h' w' => x0 (ix4 b c h' w')) (fun a b' => x1 (ix4 0 c a b')) (biasTen x2 bcast_S_S64 (ix1 c)) h w 2 2 := by
  have hh := h.isLt
  have hw := w.isLt
  show val_main_v68 (F := Ideal) x0 x2 (ix4 b c h w) * val_main_v72 (F := Ideal) x1 (ix4 b c h w) = _
  unfold val_main_v68 val_main_v72 val_main_v71 val_main_v70 val_main_v69
  rw [slice4_apply 2 2 _ _ b c h w (by omega) (by omega), padded_apply,
    chanBroadcastInDim_apply (by decide) _ _ _ b c h w, tapWeight_apply 2 2 x1 _ _ c (by decide) (by decide)]
  rfl

/-- The running maximum after the ninth tap. -/
theorem hi_apply (x0 : FVec Ideal S16x64x112x112 .f32) (x1 : FVec Ideal S1x64x3x3 .f32) (x2 : FVec Ideal S64 .f32)
    (b : Fin 16) (c : Fin 64) (h w : Fin 112) :
    val_main_v74 (F := Ideal) x0 x1 x2 (ix4 b c h w)
      = hi9 (tapv (fun h' w' => x0 (ix4 b c h' w')) (fun a b' => x1 (ix4 0 c a b')) (biasTen x2 bcast_S_S64 (ix1 c)) h w) := by
  show max (max (max (max (max (max (max (max
      (val_main_v11 (F := Ideal) x0 x1 x2 (ix4 b c h w)) (val_main_v17 (F := Ideal) x0 x1 x2 (ix4 b c h w)))
      (val_main_v25 (F := Ideal) x0 x1 x2 (ix4 b c h w))) (val_main_v33 (F := Ideal) x0 x1 x2 (ix4 b c h w)))
      (val_main_v41 (F := Ideal) x0 x1 x2 (ix4 b c h w))) (val_main_v49 (F := Ideal) x0 x1 x2 (ix4 b c h w)))
      (val_main_v57 (F := Ideal) x0 x1 x2 (ix4 b c h w))) (val_main_v65 (F := Ideal) x0 x1 x2 (ix4 b c h w)))
      (val_main_v73 (F := Ideal) x0 x1 x2 (ix4 b c h w)) = _
  rw [tap0_apply, tap1_apply, tap2_apply, tap3_apply, tap4_apply, tap5_apply, tap6_apply, tap7_apply, tap8_apply]
  rfl

/-- The running minimum after the ninth tap. -/
theorem lo_apply (x0 : FVec Ideal S16x64x112x112 .f32) (x1 : FVec Ideal S1x64x3x3 .f32) (x2 : FVec Ideal S64 .f32)
    (b : Fin 16) (c : Fin 64) (h w : Fin 112) :
    val_main_v75 (F := Ideal) x0 x1 x2 (ix4 b c h w)
      = lo9 (tapv (fun h' w' => x0 (ix4 b c h' w')) (fun a b' => x1 (ix4 0 c a b')) (biasTen x2 bcast_S_S64 (ix1 c)) h w) := by
  show min (min (min (min (min (min (min (min
      (val_main_v11 (F := Ideal) x0 x1 x2 (ix4 b c h w)) (val_main_v17 (F := Ideal) x0 x1 x2 (ix4 b c h w)))
      (val_main_v25 (F := Ideal) x0 x1 x2 (ix4 b c h w))) (val_main_v33 (F := Ideal) x0 x1 x2 (ix4 b c h w)))
      (val_main_v41 (F := Ideal) x0 x1 x2 (ix4 b c h w))) (val_main_v49 (F := Ideal) x0 x1 x2 (ix4 b c h w)))
      (val_main_v57 (F := Ideal) x0 x1 x2 (ix4 b c h w))) (val_main_v65 (F := Ideal) x0 x1 x2 (ix4 b c h w)))
      (val_main_v73 (F := Ideal) x0 x1 x2 (ix4 b c h w)) = _
  rw [tap0_apply, tap1_apply, tap2_apply, tap3_apply, tap4_apply, tap5_apply, tap6_apply, tap7_apply, tap8_apply]
  rfl

/-- The reference's result is `G` of its four arguments. -/
theorem result_eq (x0 : FVec Ideal S16x64x112x112 .f32) (x1 : FVec Ideal S1x64x3x3 .f32) (x2 x3 : FVec Ideal S64 .f32) :
    val_main_v93 (F := Ideal) x0 x1 x2 x3 = G x0 x1 x2 x3 bcast_S_S64 := by
  funext i
  obtain ⟨b, c, h, w, rfl⟩ : ∃ (b : Fin 16) (c : Fin 64) (h w : Fin 112), i = ix4 b c h w :=
    ⟨i 0, i 1, i 2, i 3, eq_ix4 i⟩
  show val_main_v75 (F := Ideal) x0 x1 x2 (ix4 b c h w)
      + (val_main_v74 (F := Ideal) x0 x1 x2 (ix4 b c h w) - val_main_v75 (F := Ideal) x0 x1 x2 (ix4 b c h w))
        * val_main_v86 (F := Ideal) x3 (ix4 b c h w)
      - val_main_v92 (F := Ideal) x2 (ix4 b c h w) = _
  have e86 : val_main_v86 (F := Ideal) x3 (ix4 b c h w) = sigTen x3 bcast_S_S64 (ix1 c) := by
    unfold val_main_v86 val_main_v84
    exact chanBroadcastInDim_apply (by decide) _ _ _ b c h w
  have e92 : val_main_v92 (F := Ideal) x2 (ix4 b c h w) = biasTen x2 bcast_S_S64 (ix1 c) := by
    unfold val_main_v92 val_main_v91
    exact chanBroadcastInDim_apply (by decide) _ _ _ b c h w
  rw [e86, e92, hi_apply, lo_apply]
  rfl

end Cert.ReferenceIdeal.RefValue

end
-- ==== Proof.lean ====
/-
  The claim of this certificate: the three programs run and leave their arguments unchanged, the idealization
  rewrote nothing, and at the ideal instance the kernel and the reference end with one result.

  Both results are `Cert.Morph.G` of the four argument arrays (Proof/Spec.lean): per channel, the image padded by one
  cell with the offset times ten added everywhere, nine taps of a 3x3 window each times its weight, their maximum and
  minimum folded tap after tap in row-major order, blended by `1 / (1 + exp (-(perc * 10)))`, the offset taken away.
  The kernel's side is Proof/KernelValue.lean over Proof/KernelBody.lean (the padded image lives in a scratch the body
  fills and reads back); the reference's is Proof/RefValue.lean (the host's `pad`, nine slices and nine products).
  Every operation meets its twin on the other side — no law of the extended reals is used beyond 0 + B = B for the
  reference's padding value —, so the precondition is never opened.
-/
import proofs.«136081_j103079215602_1_alg».proof.Defs
import proofs.«136081_j103079215602_1_alg».proof.Proof.Gen.Kernel
import proofs.«136081_j103079215602_1_alg».proof.Proof.Gen.Kernel.Skeleton
import proofs.«136081_j103079215602_1_alg».proof.Proof.Gen.Kernel.Launch
import proofs.«136081_j103079215602_1_alg».proof.Proof.Gen.Kernel.Points
import proofs.«136081_j103079215602_1_alg».proof.Proof.Gen.Kernel.Frame
import proofs.«136081_j103079215602_1_alg».proof.Proof.Gen.KernelIdeal
import proofs.«136081_j103079215602_1_alg».proof.Proof.Gen.KernelIdeal.Skeleton
import proofs.«136081_j103079215602_1_alg».proof.Proof.Gen.KernelIdeal.Launch
import proofs.«136081_j103079215602_1_alg».proof.Proof.Gen.KernelIdeal.Points
import proofs.«136081_j103079215602_1_alg».proof.Proof.Gen.KernelIdeal.Frame
import proofs.«136081_j103079215602_1_alg».proof.Proof.Gen.ReferenceIdeal
import proofs.«136081_j103079215602_1_alg».proof.Proof.Gen.Pre_finite_inputs
import proofs.«136081_j103079215602_1_alg».proof.Proof.Gen.KernelIdeal.Value
import proofs.«136081_j103079215602_1_alg».proof.Proof.Gen.ReferenceIdeal.Run
import proofs.«136081_j103079215602_1_alg».proof.Proof.Gen.ReferenceIdeal.Read
import proofs.«136081_j103079215602_1_alg».proof.Proof.KernelValue
import proofs.«136081_j103079215602_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at `G` of those arguments. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
